-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x256x256 : Shape := ⟨4, ![64, 4, 256, 256]⟩
abbrev S_ : Shape := ⟨0, ![]⟩

class Facts : Prop where
  bcast_S_S64x4x256x256 : S_.BroadcastsInDim S64x4x256x256 (![] : Fin 0 → Fin S64x4x256x256.rank)
  reducesTo_S64x4x256x256_S_d0_1_2_3 : S64x4x256x256.ReducesTo [0, 1, 2, 3] S_
  h_S_ : 0 < S_.numel

variable [Facts]

def fn {F : FTy → Type} [FloatOps F] (main_arg0 : FVec F S64x4x256x256 .f32) (main_arg1 : FVec F S64x4x256x256 .f32) (main_arg2 : FVec F S64x4x256x256 .f32) : IVec S_ 1 :=
  let main_v0 : FVec F S64x4x256x256 .f32 := Host.absf main_arg0
  let main_cst : FVec F S_ .f32 := constant S_ .f32 0x7F800000#32
  let main_v1 : FVec F S64x4x256x256 .f32 := broadcastInDim S64x4x256x256 ![] bcast_S_S64x4x256x256 main_cst
  let main_v2 : IVec S64x4x256x256 1 := cmpf .olt main_v0 main_v1
  let main_c : IVec S_ 1 := constantI S_ 1 1#1
  let main_v3 : IVec S_ 1 := (fun x v => Host.reduce IntOp.andi x v reducesTo_S64x4x256x256_S_d0_1_2_3 h_S_) main_v2 main_c
  let main_v4 : FVec F S64x4x256x256 .f32 := Host.absf main_arg1
  let main_cst_0 : FVec F S_ .f32 := constant S_ .f32 0x7F800000#32
  let main_v5 : FVec F S64x4x256x256 .f32 := broadcastInDim S64x4x256x256 ![] bcast_S_S64x4x256x256 main_cst_0
  let main_v6 : IVec S64x4x256x256 1 := cmpf .olt main_v4 main_v5
  let main_c_1 : IVec S_ 1 := constantI S_ 1 1#1
  let main_v7 : IVec S_ 1 := (fun x v => Host.reduce IntOp.andi x v reducesTo_S64x4x256x256_S_d0_1_2_3 h_S_) main_v6 main_c_1
  let main_v8 : IVec S_ 1 := andi main_v3 main_v7
  let main_v9 : FVec F S64x4x256x256 .f32 := Host.absf main_arg2
  let main_cst_2 : FVec F S_ .f32 := constant S_ .f32 0x7F800000#32
  let main_v10 : FVec F S64x4x256x256 .f32 := broadcastInDim S64x4x256x256 ![] bcast_S_S64x4x256x256 main_cst_2
  let main_v11 : IVec S64x4x256x256 1 := cmpf .olt main_v9 main_v10
  let main_c_3 : IVec S_ 1 := constantI S_ 1 1#1
  let main_v12 : IVec S_ 1 := (fun x v => Host.reduce IntOp.andi x v reducesTo_S64x4x256x256_S_d0_1_2_3 h_S_) main_v11 main_c_3
  let main_v13 : IVec S_ 1 := andi main_v8 main_v12
  main_v13
-- ==== Kernel.lean ====
abbrev S64x4x256x256 : Shape := ⟨4, ![64, 4, 256, 256]⟩
abbrev S64x262144 : Shape := ⟨2, ![64, 262144]⟩
abbrev S64x1 : Shape := ⟨2, ![64, 1]⟩
abbrev S64 : Shape := ⟨1, ![64]⟩
abbrev S1x64 : Shape := ⟨2, ![1, 64]⟩
abbrev S64x64 : Shape := ⟨2, ![64, 64]⟩
abbrev S_ : Shape := ⟨0, ![]⟩
abbrev S32x32768 : Shape := ⟨2, ![32, 32768]⟩
abbrev S32x1 : Shape := ⟨2, ![32, 1]⟩
abbrev S32 : Shape := ⟨1, ![32]⟩

abbrev nBuf : Space → Nat
  | .hbm => 46
  | .vmem => 12
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .f32⟩
  | .hbm, ⟨3, _⟩ => ⟨S64x262144, .f32⟩
  | .hbm, ⟨4, _⟩ => ⟨S64x262144, .f32⟩
  | .hbm, ⟨5, _⟩ => ⟨S64x262144, .f32⟩
  | .hbm, ⟨6, _⟩ => ⟨S64x1, .f32⟩
  | .hbm, ⟨7, _⟩ => ⟨S64x1, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1x64, .f32⟩
  | .hbm, ⟨12, _⟩ => ⟨S64x1, .f32⟩
  | .hbm, ⟨13, _⟩ => ⟨S1x64, .f32⟩
  | .hbm, ⟨14, _⟩ => ⟨S64x64, .f32⟩
  | .hbm, ⟨15, _⟩ => ⟨S64x64, .f32⟩
  | .hbm, ⟨16, _⟩ => ⟨S64x64, .i1⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | _, _ => ⟨S64x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_cst : Ref sig .tc := ⟨.hbm, 24, rfl⟩
abbrev main_call0_v20 : Ref sig .tc := ⟨.hbm, 25, rfl⟩
abbrev main_call0_v21 : Ref sig .tc := ⟨.hbm, 26, rfl⟩
abbrev main_call0_cst_0 : Ref sig .tc := ⟨.hbm, 27, rfl⟩
abbrev main_call0_v22 : Ref sig .tc := ⟨.hbm, 28, rfl⟩
abbrev main_call0_v23 : Ref sig .tc := ⟨.hbm, 29, rfl⟩
abbrev main_call0_cst_1 : Ref sig .tc := ⟨.hbm, 30, rfl⟩
abbrev main_call0_v24 : Ref sig .tc := ⟨.hbm, 31, rfl⟩
abbrev main_call0_call1_v0 : Ref sig .tc := ⟨.hbm, 32, rfl⟩
abbrev main_call0_call1_c : Ref sig .tc := ⟨.hbm, 33, rfl⟩
abbrev main_call0_call1_v1 : Ref sig .tc := ⟨.hbm, 34, rfl⟩
abbrev main_call0_call1_v2 : Ref sig .tc := ⟨.hbm, 35, rfl⟩
abbrev main_call0_call1_v3 : Ref sig .tc := ⟨.hbm, 36, rfl⟩
abbrev main_call0_call1_v4 : Ref sig .tc := ⟨.hbm, 37, rfl⟩
abbrev main_call0_call1_cst : Ref sig .tc := ⟨.hbm, 38, rfl⟩
abbrev main_call0_call1_v5 : Ref sig .tc := ⟨.hbm, 39, rfl⟩
abbrev main_call0_v25 : Ref sig .tc := ⟨.hbm, 40, rfl⟩
abbrev main_call0_v26 : Ref sig .tc := ⟨.hbm, 41, rfl⟩
abbrev main_call0_cst_2 : Ref sig .tc := ⟨.hbm, 42, rfl⟩
abbrev main_call0_v27 : Ref sig .tc := ⟨.hbm, 43, rfl⟩
abbrev main_call0_cst_3 : Ref sig .tc := ⟨.hbm, 44, rfl⟩
abbrev main_v0 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x4x256x256_S64x262144 : S64x4x256x256.ShapeCasts S64x262144
  shapeCasts_S64x1_S64 : S64x1.ShapeCasts S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  h_S_ : 0 < S_.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  reduces_S32x32768_S32 : S32x32768.Reduces [1] S32
  shapeCasts_S32_S32x1 : S32.ShapeCasts S32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x262144.size a
  hwx0_0 : ∀ i : grid0.Coords, EltTy.bits .f32 = 32 ∨ (Rect.block (s := S64x262144) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x262144.size a
  hwx0_1 : ∀ i : grid0.Coords, EltTy.bits .f32 = 32 ∨ (Rect.block (s := S64x262144) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S64x262144.size a
  hwx0_2 : ∀ i : grid0.Coords, EltTy.bits .f32 = 32 ∨ (Rect.block (s := S64x262144) S32x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)

variable [Facts₀]

abbrev win0_0 : Pipeline.Window sig grid0 :=
  Pipeline.Window.ofSpec (Memref.whole main_call0_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S32x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x4x256x256 : Shape := ⟨4, ![64, 4, 256, 256]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩

abbrev nBuf : Space → Nat
  | .hbm => 51
  | .vmem => 0
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .f32⟩
  | .hbm, ⟨3, _⟩ => ⟨S64x4x256x256, .f32⟩
  | .hbm, ⟨4, _⟩ => ⟨S64x4x256x256, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S1x64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .i1⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_cst : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  reducesTo_S64x4x256x256_S64_d1_2_3 : S64x4x256x256.ReducesTo [1, 2, 3] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_

variable [Facts₀]

class Facts : Prop extends Facts₀ where

variable [Facts]
-- ==== Proof.Pieces.lean ====
/-
  What one run of the kernel body leaves behind, as values. The body keeps two [32, 1] running sums in scratch memory:
  at the first reduction step of a row tile it stores zero and then adds the step's row sums; at every later step it adds
  the step's row sums to what the step before left; at the last step it also stores the running sums times 2⁻¹⁸ into the
  two output blocks. Each statement below reads the stores of one control case back as the body's arithmetic
  (`k0_pay3`: running sum + row sums of |a − b|; `k0_pay4`: running sum + row sums; `k0_pay5`, `k0_pay6`: times 2⁻¹⁸;
  `k0_pay1`, `k0_pay2`: zero), at any float instance.
-/
import proofs.«118534_j33818572488744_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- First step of a row tile: the error sum is zero plus the step's row sums of |a − b|. -/
theorem first_err (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : cond0_0 i) (hc1 : ¬cond0_1 i)
    (x0 : Vec F S32x32768 .f32) (x1 : Vec F S32x32768 .f32) (x2 : Vec F S32x32768 .f32) :
    sout0_A_0 c i arg2 harg2 arg3 harg3 arg4 harg4 arg5 harg5 arg6 harg6 arg7 harg7 arg8 harg8 hc0 hc1 x0 x1 x2 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x1) hz, View.readCov_unit_zero (S := S32x1) _ hz]
  simp only [View.readAt_eq_ld, harg2.read_unread, harg3.read_unread, harg4.read_unread, harg7.read_unread, harg8.read_unread,
    View.ld_unit_zero (S := S32x32768) hz, View.ld_unit_zero (S := S32x1) hz]

/-- First step of a row tile: the uncertainty sum is zero plus the step's row sums. -/
theorem first_unc (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : cond0_0 i) (hc1 : ¬cond0_1 i)
    (x0 : Vec F S32x32768 .f32) (x1 : Vec F S32x32768 .f32) (x2 : Vec F S32x32768 .f32) :
    sout0_A_1 c i arg2 harg2 arg3 harg3 arg4 harg4 arg5 harg5 arg6 harg6 arg7 harg7 arg8 harg8 hc0 hc1 x0 x1 x2 = k0_pay4 (k0_pay2 (F := F)) x1 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x1) hz, View.readCov_unit_zero (S := S32x1) _ hz]
  simp only [View.readAt_eq_ld, harg2.read_unread, harg3.read_unread, harg4.read_unread, harg7.read_unread, harg8.read_unread,
    View.ld_unit_zero (S := S32x32768) hz, View.ld_unit_zero (S := S32x1) hz]

/-- A middle step: the error sum is what the step before left plus the step's row sums of |a − b|. -/
theorem mid_err (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : ¬cond0_1 i)
    (x0 : Vec F S32x32768 .f32) (x1 : Vec F S32x32768 .f32) (x2 : Vec F S32x32768 .f32) (xs0 : Vec F S32x1 .f32) (xs1 : Vec F S32x1 .f32) :
    sout0_B_0 c i arg2 harg2 arg3 harg3 arg4 harg4 arg5 harg5 arg6 harg6 arg7 harg7 arg8 harg8 hc0 hc1 x0 x1 x2 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]

/-- A middle step: the uncertainty sum is what the step before left plus the step's row sums. -/
theorem mid_unc (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : ¬cond0_1 i)
    (x0 : Vec F S32x32768 .f32) (x1 : Vec F S32x32768 .f32) (x2 : Vec F S32x32768 .f32) (xs0 : Vec F S32x1 .f32) (xs1 : Vec F S32x1 .f32) :
    sout0_B_1 c i arg2 harg2 arg3 harg3 arg4 harg4 arg5 harg5 arg6 harg6 arg7 harg7 arg8 harg8 hc0 hc1 x0 x1 x2 xs0 xs1 = k0_pay4 xs1 x1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]

/-- The last step accumulates like a middle one. -/
theorem last_err (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x32768 .f32) (x1 : Vec F S32x32768 .f32) (x2 : Vec F S32x32768 .f32) (xs0 : Vec F S32x1 .f32) (xs1 : Vec F S32x1 .f32) :
    sout0_C_0 c i arg2 harg2 arg3 harg3 arg4 harg4 arg5 harg5 arg6 harg6 arg7 harg7 arg8 harg8 hc0 hc1 x0 x1 x2 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]

/-- The last step accumulates like a middle one. -/
theorem last_unc (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x32768 .f32) (x1 : Vec F S32x32768 .f32) (x2 : Vec F S32x32768 .f32) (xs0 : Vec F S32x1 .f32) (xs1 : Vec F S32x1 .f32) :
    sout0_C_1 c i arg2 harg2 arg3 harg3 arg4 harg4 arg5 harg5 arg6 harg6 arg7 harg7 arg8 harg8 hc0 hc1 x0 x1 x2 xs0 xs1 = k0_pay4 xs1 x1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]

/-- The last step stores the finished error sum times 2⁻¹⁸ into the first output block. -/
theorem last_err_out (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x32768 .f32) (x1 : Vec F S32x32768 .f32) (x2 : Vec F S32x32768 .f32) (xs0 : Vec F S32x1 .f32) (xs1 : Vec F S32x1 .f32) :
    out0_C_3 c i arg2 harg2 arg3 harg3 arg4 harg4 arg5 harg5 arg6 harg6 arg7 harg7 arg8 harg8 hc0 hc1 x0 x1 x2 xs0 xs1 = k0_pay5 (k0_pay3 x0 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]
  rw [View.readCov_unit_zero (S := S32x1) _ hz]

/-- The last step stores the finished uncertainty sum times 2⁻¹⁸ into the second output block. -/
theorem last_unc_out (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x1 .f32) (harg6 : arg6.IsWhole) (arg7 : Memref sig .tc .vmem S32x1 .f32) (harg7 : arg7.IsWhole) (arg8 : Memref sig .tc .vmem S32x1 .f32) (harg8 : arg8.IsWhole) (hc0 : ¬cond0_0 i) (hc1 : cond0_1 i)
    (x0 : Vec F S32x32768 .f32) (x1 : Vec F S32x32768 .f32) (x2 : Vec F S32x32768 .f32) (xs0 : Vec F S32x1 .f32) (xs1 : Vec F S32x1 .f32) :
    out0_C_4 c i arg2 harg2 arg3 harg3 arg4 harg4 arg5 harg5 arg6 harg6 arg7 harg7 arg8 harg8 hc0 hc1 x0 x1 x2 xs0 xs1 = k0_pay6 (k0_pay4 xs1 x1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread,
    View.ld_unit_zero (S := S32x32768) hz, View.ld_unit_zero (S := S32x1) hz]
  rw [View.readCov_unit_zero (S := S32x1) _ hz]

end Cert.KernelIdeal.Pieces

end
-- ==== Proof.Steps.lean ====
/-
  The running sums position by position. Position t of the 16 is reduction step t mod 8 of row tile t div 8. At a
  step with t mod 8 = 0 the two running sums restart from zero; at every other step they continue from what position
  t − 1 left; at t mod 8 = 7 the two output blocks receive the running sums scaled by 2⁻¹⁸. Stated at any float instance,
  over the body's arithmetic.
-/
import proofs.«118534_j33818572488744_2_alg».proof.Proof.Pieces

set_option maxRecDepth 16384

noncomputable section

namespace Cert.KernelIdeal.Steps

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- A restart: the error sum after position t is zero plus the step's contribution. -/
theorem restart_err (c : Dev nD) (t : Fin cfg0.N) (h0 : t.val % 8 = 0) (h1 : ¬t.val % 8 = 7) :
    (outsAt0 m c t.val t.isLt).2.2.1 = k0_pay3 (iblk m c 0 t) (iblk m c 2 t) (k0_pay1 (F := F)) := by
  rw [outsAt0_A m c t h0 h1]
  exact first_err (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- A restart: the uncertainty sum after position t is zero plus the step's contribution. -/
theorem restart_unc (c : Dev nD) (t : Fin cfg0.N) (h0 : t.val % 8 = 0) (h1 : ¬t.val % 8 = 7) :
    (outsAt0 m c t.val t.isLt).2.2.2 = k0_pay4 (k0_pay2 (F := F)) (iblk m c 1 t) := by
  rw [outsAt0_A m c t h0 h1]
  exact first_unc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- A continuation: the error sum after position t is the one after t − 1 plus the step's contribution. -/
theorem continue_err (c : Dev nD) (t : Fin cfg0.N) (h0 : ¬t.val % 8 = 0) :
    (outsAt0 m c t.val t.isLt).2.2.1 = k0_pay3 (iblk m c 0 t) (iblk m c 2 t) (outsAt0 m c (t.val - 1) (Nat.lt_of_le_of_lt (Nat.sub_le _ _) t.isLt)).2.2.1 := by
  by_cases h1 : t.val % 8 = 7
  · rw [outsAt0_C m c t h0 h1]
    exact last_err (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact mid_err (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- A continuation: the uncertainty sum after position t is the one after t − 1 plus the step's contribution. -/
theorem continue_unc (c : Dev nD) (t : Fin cfg0.N) (h0 : ¬t.val % 8 = 0) :
    (outsAt0 m c t.val t.isLt).2.2.2 = k0_pay4 (outsAt0 m c (t.val - 1) (Nat.lt_of_le_of_lt (Nat.sub_le _ _) t.isLt)).2.2.2 (iblk m c 1 t) := by
  by_cases h1 : t.val % 8 = 7
  · rw [outsAt0_C m c t h0 h1]
    exact last_unc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    exact mid_unc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last step of a row tile the first output block holds the finished error sum scaled by 2⁻¹⁸. -/
theorem out_err (c : Dev nD) (t : Fin cfg0.N) (h1 : t.val % 8 = 7) :
    (outsAt0 m c t.val t.isLt).1 = k0_pay5 (outsAt0 m c t.val t.isLt).2.2.1 := by
  have h0 : ¬t.val % 8 = 0 := by omega
  rw [outsAt0_C m c t h0 h1]
  exact (last_err_out (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg k0_pay5 (last_err (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- At the last step of a row tile the second output block holds the finished uncertainty sum scaled by 2⁻¹⁸. -/
theorem out_unc (c : Dev nD) (t : Fin cfg0.N) (h1 : t.val % 8 = 7) :
    (outsAt0 m c t.val t.isLt).2.1 = k0_pay6 (outsAt0 m c t.val t.isLt).2.2.2 := by
  have h0 : ¬t.val % 8 = 0 := by omega
  rw [outsAt0_C m c t h0 h1]
  exact (last_unc_out (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg k0_pay6 (last_unc (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

end Cert.KernelIdeal.Steps

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.LibSumIdx.lean ====
/-
  A sum over every index of a rank-3 or rank-4 shape is the iterated sum over its coordinates, in any commutative
  monoid — in particular on the extended reals, where addition is commutative and associative also at the infinities,
  so no finiteness is needed to regroup a sum. Also: the running sum `(((z + a 0) + a 1) + …) + a n` is `z` plus the sum
  of the `a k`, and zero minus `x` is `-x` on the extended reals.
-/
import Idealize.ShloMosaic.PureOps.Ideal
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Zero minus `x` is the negation of `x` on the extended reals. -/
theorem zero_sub_ereal (x : EReal) : (0 : EReal) - x = -x := by
  rw [sub_eq_add_neg, zero_add]

/-- The running sum from `z`: after step `n` it is `z` plus the first `n + 1` terms. -/
def running {M : Type*} [AddCommMonoid M] (z : M) (a : ℕ → M) : ℕ → M
  | 0 => z + a 0
  | n + 1 => running z a n + a (n + 1)

/-- The running sum after step `n` is `z` plus the sum of the terms `0 … n`. -/
theorem running_eq {M : Type*} [AddCommMonoid M] (z : M) (a : ℕ → M) (n : ℕ) :
    running z a n = z + ∑ k ∈ Finset.range (n + 1), a k := by
  induction n with
  | zero => simp [running]
  | succ n ih => rw [running, ih, Finset.sum_range_succ _ (n + 1), add_assoc]

end Cert.LibSumIdx

end
-- ==== Proof.LibTileSum.lean ====
/-
  A sum over T·R consecutive indices, regrouped into T tiles of R: the sum over n < T·R of f n is the sum over the tiles
  t < T of the sums over the rows r < R of f (R·t + r). A reordering of a finite sum in a commutative monoid: it holds
  on the extended reals with no finiteness condition.
-/
import Mathlib.Algebra.BigOperators.Fin
import Mathlib.Logic.Equiv.Fin.Basic

open scoped BigOperators

namespace LibTileSum

/-- A sum over T·R indices is the sum over T tiles of the sums over their R rows. -/
theorem sum_tiles {M : Type*} [AddCommMonoid M] (T R : ℕ) (f : Fin (T * R) → M) :
    ∑ n : Fin (T * R), f n
      = ∑ t : Fin T, ∑ r : Fin R, f ⟨R * t.val + r.val, by
          have ht := t.isLt; have hr := r.isLt
          have h1 : R * (t.val + 1) ≤ R * T := Nat.mul_le_mul_left _ ht
          rw [Nat.mul_succ] at h1
          rw [Nat.mul_comm T R]; omega⟩ := by
  rw [← Equiv.sum_comp finProdFinEquiv f, Fintype.sum_prod_type]
  refine Finset.sum_congr rfl fun t _ => Finset.sum_congr rfl fun r _ => congrArg f (Fin.ext ?_)
  show r.val + R * t.val = R * t.val + r.val
  omega

end LibTileSum
-- ==== Proof.MeanSpec.lean ====
/-
  The two per-sample means the loss is built from, as functions of a [64, 262144] array, and the laws that let two
  differently arranged computations of them meet.

  A sample has 262144 = 4 · 256 · 256 = 8 · 32768 entries. Its sum over all entries can be taken lane by lane inside
  eight tiles of 32768 (first the lanes of a tile, then the tiles) or coordinate by coordinate over (4, 256, 256): both
  are regroupings of one finite sum in a commutative monoid, so they agree on the extended reals with no finiteness
  condition. The mean is that sum times 2⁻¹⁸, or equally that sum (started from zero) divided by 2¹⁸ = 262144: a division
  by a nonzero real is the product with its reciprocal on every extended real.
-/
import Idealize.ShloMosaic.PureOps.Ideal
import Idealize.ShloMosaic.PureOps.Ideal.Laws
import Idealize.ShloMosaic.Lib.ValueIdx
import proofs.«118534_j33818572488744_2_alg».proof.Proof.LibSumIdx
import proofs.«118534_j33818572488744_2_alg».proof.Proof.LibTileSum

noncomputable section

open scoped BigOperators

namespace Cert.MeanSpec

open Idealize.ShloMosaic Idealize.ShloMosaic.ValueIdx

/-! ## The two float literals -/

/-- The word 0x48800000 is 2¹⁸ = 262144. -/
theorem two_pow_18 : Ideal.ofBits .f32 0x48800000#32 = ((262144 : ℝ) : EReal) := by
  simp [Ideal.ofBits, Ideal.ieee, -EReal.coe_mul]; norm_num

/-- The word 0x36800000 is 2⁻¹⁸ = 1 / 262144, exactly. -/
theorem two_pow_neg_18 : Ideal.ofBits .f32 0x36800000#32 = ((1 / 262144 : ℝ) : EReal) := by
  simp [Ideal.ofBits, Ideal.ieee, -EReal.coe_mul]; norm_num

/-- A sum started from zero and divided by 262144 is the sum times 2⁻¹⁸, for every extended real. -/
theorem zero_add_div (S : EReal) :
    Ideal.div (Ideal.ofBits .f32 0x00000000#32 + S) (Ideal.ofBits .f32 0x48800000#32)
      = S * Ideal.ofBits .f32 0x36800000#32 := by
  rw [Ideal.ofBits_zero_f32, zero_add, two_pow_18, two_pow_neg_18, Ideal.div_coe (by norm_num : (262144 : ℝ) ≠ 0)]

/-! ## Positions inside a sample -/

/-- Lane `k` of tile `s`: position 32768·s + k. -/
def lane (s : Fin 8) (k : Fin 32768) : Fin 262144 :=
  ⟨32768 * s.val + k.val, by have := s.isLt; have := k.isLt; omega⟩

/-- Entry (b, c, d) of a (4, 256, 256) sample in row-major order: position 65536·b + 256·c + d. -/
def flat (b : Fin 4) (c d : Fin 256) : Fin 262144 :=
  ⟨65536 * b.val + (256 * c.val + d.val), by have := b.isLt; have := c.isLt; have := d.isLt; omega⟩

/-- A sum over a sample's positions, tile by tile. -/
theorem sum_lanes {M : Type*} [AddCommMonoid M] (g : Fin 262144 → M) :
    ∑ j, g j = ∑ s : Fin 8, ∑ k : Fin 32768, g (lane s k) :=
  LibTileSum.sum_tiles 8 32768 g

/-- A sum over a sample's positions, coordinate by coordinate. -/
theorem sum_flat {M : Type*} [AddCommMonoid M] (g : Fin 262144 → M) :
    ∑ j, g j = ∑ b : Fin 4, ∑ c : Fin 256, ∑ d : Fin 256, g (flat b c d) := by
  refine (LibTileSum.sum_tiles 4 65536 g).trans ?_
  refine Finset.sum_congr rfl fun b _ => ?_
  exact LibTileSum.sum_tiles 256 256 fun e : Fin (256 * 256) =>
    g ⟨65536 * b.val + e.val, by have := b.isLt; have := e.isLt; omega⟩

/-! ## The means -/

/-- |a − b| on the extended reals, as both programs compute it. -/
def absDiff (a b : EReal) : EReal := max (a - b) (-(a - b))

/-- The mean of a row of a [64, 262144] array: the sum of its 262144 entries times 2⁻¹⁸. -/
def rowMean (x : (⟨2, ![64, 262144]⟩ : Shape).Idx → EReal) (r : Fin 64) : EReal :=
  (∑ j : Fin 262144, x (ix2 r j)) * Ideal.ofBits .f32 0x36800000#32

/-- Entry (r, j) of a [64, 262144] array addressed by natural numbers; zero outside the array. -/
def entry (A : (⟨2, ![64, 262144]⟩ : Shape).Idx → EReal) (r j : ℕ) : EReal :=
  if h : r < 64 ∧ j < 262144 then A (ix2 ⟨r, h.1⟩ ⟨j, h.2⟩) else 0

/-- The [64, 1] column of the rows' means of |A − B|. -/
def meanAbsDiffCol (A B : (⟨2, ![64, 262144]⟩ : Shape).Idx → EReal) : (⟨2, ![64, 1]⟩ : Shape).Idx → EReal :=
  fun i => rowMean (fun j => absDiff (A j) (B j)) (i 0)

/-- The [64, 1] column of the rows' means of A. -/
def meanCol (A : (⟨2, ![64, 262144]⟩ : Shape).Idx → EReal) : (⟨2, ![64, 1]⟩ : Shape).Idx → EReal :=
  fun i => rowMean A (i 0)

/-- Lane k of tile s of row r, addressed by natural numbers, is the array's entry (r, lane s k). -/
theorem entry_lane (A : (⟨2, ![64, 262144]⟩ : Shape).Idx → EReal) (r : Fin 64) (s : Fin 8) (k : Fin 32768) :
    entry A r.val (32768 * s.val + k.val) = A (ix2 r (lane s k)) := by
  have hb : r.val < 64 ∧ 32768 * s.val + k.val < 262144 := ⟨r.isLt, (lane s k).isLt⟩
  unfold entry
  rw [dif_pos hb]
  rfl

end Cert.MeanSpec

end
-- ==== Proof.PayloadAt.lean ====
/-
  The kernel body's arithmetic read at one row, on the extended reals. A [32, 32768] block is reduced lane-wise:
  row p of the step's contribution is the sum over the 32768 lanes k of the block at (p, k) (of |a − b| for the error
  sum). The running sums are [32, 1] columns; the finished column is scaled entry by entry by 2⁻¹⁸.
-/
import proofs.«118534_j33818572488744_2_alg».proof.Proof.Gen.KernelIdeal.Skeleton
import proofs.«118534_j33818572488744_2_alg».proof.Proof.LibColumn
import proofs.«118534_j33818572488744_2_alg».proof.Proof.MeanSpec
import Idealize.ShloMosaic.Lib.Pipeline.Value
import Idealize.ShloMosaic.Lib.ValueIdx
import Idealize.ShloMosaic.PureOps.Ideal.Laws

noncomputable section

open scoped BigOperators

namespace Cert.KernelIdeal.PayloadAt

open Idealize.ShloMosaic Idealize.ShloMosaic.ValueIdx
open Cert.KernelIdeal Cert.KernelIdeal.Gen Cert.MeanSpec

/-- The zero column the first step of a row tile stores. -/
theorem zero_err_at (p : Fin 32) (u : Fin 1) : k0_pay1 (F := Ideal) (ix2 p u) = 0 := by
  unfold k0_pay1
  simp only [shapeCast_self]
  exact Ideal.ofBits_zero_f32

theorem zero_unc_at (p : Fin 32) (u : Fin 1) : k0_pay2 (F := Ideal) (ix2 p u) = 0 := by
  unfold k0_pay2
  simp only [shapeCast_self]
  exact Ideal.ofBits_zero_f32

/-- One step of the error sum at row p: what was there plus the sum over the lanes of |a − b|. -/
theorem acc_err_at (a b : Vec Ideal S32x32768 .f32) (s : Vec Ideal S32x1 .f32) (p : Fin 32) (u : Fin 1) :
    k0_pay3 (F := Ideal) a b s (ix2 p u) = s (ix2 p u) + ∑ k : Fin 32768, absDiff (a (ix2 p k)) (b (ix2 p k)) := by
  unfold k0_pay3
  simp only [shapeCast_self]
  refine (addf_apply _ _ _).trans (congrArg (s (ix2 p u) + ·) ?_)
  refine (Cert.LibColumn.shapeCast_a_a1_apply _ shapeCasts_S32_S32x1 p u).trans ?_
  refine (Ideal.multiReduction_add_single _ _ reduces_S32x32768_S32 _ _ (ix1 p)).trans ?_
  refine Finset.sum_congr rfl fun k _ => ?_
  rw [Cert.LibColumn.lift_row reduces_S32x32768_S32 p k]
  rfl

/-- One step of the uncertainty sum at row p: what was there plus the sum over the lanes. -/
theorem acc_unc_at (s : Vec Ideal S32x1 .f32) (x : Vec Ideal S32x32768 .f32) (p : Fin 32) (u : Fin 1) :
    k0_pay4 (F := Ideal) s x (ix2 p u) = s (ix2 p u) + ∑ k : Fin 32768, x (ix2 p k) := by
  unfold k0_pay4
  simp only [shapeCast_self]
  refine (addf_apply _ _ _).trans (congrArg (s (ix2 p u) + ·) ?_)
  refine (Cert.LibColumn.shapeCast_a_a1_apply _ shapeCasts_S32_S32x1 p u).trans ?_
  refine (Ideal.multiReduction_add_single _ _ reduces_S32x32768_S32 _ _ (ix1 p)).trans ?_
  refine Finset.sum_congr rfl fun k _ => ?_
  rw [Cert.LibColumn.lift_row reduces_S32x32768_S32 p k]

/-- The finished error column, scaled: entry by entry times 2⁻¹⁸. -/
theorem scaled_err_at (s : Vec Ideal S32x1 .f32) (i : S32x1.Idx) :
    k0_pay5 (F := Ideal) s i = s i * Ideal.ofBits .f32 0x36800000#32 := rfl

/-- The finished uncertainty column, scaled: entry by entry times 2⁻¹⁸. -/
theorem scaled_unc_at (s : Vec Ideal S32x1 .f32) (i : S32x1.Idx) :
    k0_pay6 (F := Ideal) s i = s i * Ideal.ofBits .f32 0x36800000#32 := rfl

end Cert.KernelIdeal.PayloadAt

end
-- ==== Proof.Running.lean ====
/-
  The two running sums in closed form, and what the two output arrays end holding.

  The kernel sees three [64, 262144] arrays A, S, B (the reshaped arguments). Position t handles rows
  32·(t div 8) … 32·(t div 8) + 31 and lanes 32768·(t mod 8) … 32768·(t mod 8) + 32767. After position t the error sum
  of row p of the tile is the sum, over the reduction steps s ≤ t mod 8 done so far, of the sum over the step's lanes of
  |A − B|; likewise the uncertainty sum with S. At t mod 8 = 7 all eight steps are in, the eight tiles of 32768 lanes
  make up the row's 262144 entries, and the output block receives the row sums times 2⁻¹⁸: the rows' means.
-/
import proofs.«118534_j33818572488744_2_alg».proof.Proof.Steps
import proofs.«118534_j33818572488744_2_alg».proof.Proof.PayloadAt
import proofs.«118534_j33818572488744_2_alg».proof.Proof.MeanSpec

set_option maxRecDepth 16384

noncomputable section

open scoped BigOperators

namespace Cert.KernelIdeal.Running

open Idealize.ShloMosaic Idealize.ShloMosaic.TcCoe Idealize.SL.Sem Idealize.ShloMosaic.ValueIdx
open Cert.KernelIdeal Cert.KernelIdeal.Gen Cert.KernelIdeal.Steps Cert.KernelIdeal.PayloadAt Cert.MeanSpec

variable (m : (ℓ : Loc nD τ sig) → Buf (Elt Ideal) ℓ)

/-- The three [64, 262144] arrays as the kernel finds them. -/
abbrev arrA (c : Dev nD) : S64x262144.Idx → EReal := V m c (Pipeline.arrRef spec0 0)
abbrev arrS (c : Dev nD) : S64x262144.Idx → EReal := V m c (Pipeline.arrRef spec0 1)
abbrev arrB (c : Dev nD) : S64x262144.Idx → EReal := V m c (Pipeline.arrRef spec0 2)

/-- Where the blocks sit: every window's row-tile index at position t is t div 8; an input's lane-tile index is
    t mod 8, an output's column index 0. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- An input block at position t, read at (p, k): the array's entry at row 32·(t div 8) + p, lane 32768·(t mod 8) + k. -/
theorem blkA_at (c : Dev nD) (t : Fin cfg0.N) (p : Fin 32) (k : Fin 32768) :
    (iblk m c 0 t : Vec Ideal S32x32768 .f32) (ix2 p k)
      = entry (arrA m c) (32 * (t.val / 8) + p.val) (32768 * (t.val % 8) + k.val) := by
  have hN : t.val < 16 := lt_of_lt_of_eq t.isLt N_0
  have hp := p.isLt
  have hk := k.isLt
  have hb : 32 * (t.val / 8) + p.val < 64 ∧ 32768 * (t.val % 8) + k.val < 262144 := by omega
  unfold entry
  rw [dif_pos hb]
  unfold iblk
  rw [View.read_apply]
  show V m c (Pipeline.arrRef spec0 0) _ = V m c (Pipeline.arrRef spec0 0) _
  refine congrArg (V m c (Pipeline.arrRef spec0 0)) ?_
  obtain ⟨e0, e1, -⟩ := idx_facts t
  funext a
  apply Fin.ext
  match a with
  | ⟨0, _⟩ => show win0_0.index t (0 : Fin 2) * 32 + 1 * p.val = 32 * (t.val / 8) + p.val; rw [e0]; omega
  | ⟨1, _⟩ => show win0_0.index t (1 : Fin 2) * 32768 + 1 * k.val = 32768 * (t.val % 8) + k.val; rw [e1]; omega

theorem blkS_at (c : Dev nD) (t : Fin cfg0.N) (p : Fin 32) (k : Fin 32768) :
    (iblk m c 1 t : Vec Ideal S32x32768 .f32) (ix2 p k)
      = entry (arrS m c) (32 * (t.val / 8) + p.val) (32768 * (t.val % 8) + k.val) := by
  have hN : t.val < 16 := lt_of_lt_of_eq t.isLt N_0
  have hp := p.isLt
  have hk := k.isLt
  have hb : 32 * (t.val / 8) + p.val < 64 ∧ 32768 * (t.val % 8) + k.val < 262144 := by omega
  unfold entry
  rw [dif_pos hb]
  unfold iblk
  rw [View.read_apply]
  show V m c (Pipeline.arrRef spec0 1) _ = V m c (Pipeline.arrRef spec0 1) _
  refine congrArg (V m c (Pipeline.arrRef spec0 1)) ?_
  obtain ⟨-, -, e0, e1, -⟩ := idx_facts t
  funext a
  apply Fin.ext
  match a with
  | ⟨0, _⟩ => show win0_1.index t (0 : Fin 2) * 32 + 1 * p.val = 32 * (t.val / 8) + p.val; rw [e0]; omega
  | ⟨1, _⟩ => show win0_1.index t (1 : Fin 2) * 32768 + 1 * k.val = 32768 * (t.val % 8) + k.val; rw [e1]; omega

theorem blkB_at (c : Dev nD) (t : Fin cfg0.N) (p : Fin 32) (k : Fin 32768) :
    (iblk m c 2 t : Vec Ideal S32x32768 .f32) (ix2 p k)
      = entry (arrB m c) (32 * (t.val / 8) + p.val) (32768 * (t.val % 8) + k.val) := by
  have hN : t.val < 16 := lt_of_lt_of_eq t.isLt N_0
  have hp := p.isLt
  have hk := k.isLt
  have hb : 32 * (t.val / 8) + p.val < 64 ∧ 32768 * (t.val % 8) + k.val < 262144 := by omega
  unfold entry
  rw [dif_pos hb]
  unfold iblk
  rw [View.read_apply]
  show V m c (Pipeline.arrRef spec0 2) _ = V m c (Pipeline.arrRef spec0 2) _
  refine congrArg (V m c (Pipeline.arrRef spec0 2)) ?_
  obtain ⟨-, -, -, -, e0, e1, -⟩ := idx_facts t
  funext a
  apply Fin.ext
  match a with
  | ⟨0, _⟩ => show win0_2.index t (0 : Fin 2) * 32 + 1 * p.val = 32 * (t.val / 8) + p.val; rw [e0]; omega
  | ⟨1, _⟩ => show win0_2.index t (1 : Fin 2) * 32768 + 1 * k.val = 32768 * (t.val % 8) + k.val; rw [e1]; omega

/-- Reduction step s of row tile q, at row p of the tile: the step's lanes of |A − B| summed. -/
def tileErr (c : Dev nD) (q s : ℕ) (p : Fin 32) : EReal :=
  ∑ k : Fin 32768, absDiff (entry (arrA m c) (32 * q + p.val) (32768 * s + k.val))
    (entry (arrB m c) (32 * q + p.val) (32768 * s + k.val))

/-- Reduction step s of row tile q, at row p of the tile: the step's lanes of S summed. -/
def tileUnc (c : Dev nD) (q s : ℕ) (p : Fin 32) : EReal :=
  ∑ k : Fin 32768, entry (arrS m c) (32 * q + p.val) (32768 * s + k.val)

/-! ## One position -/

theorem err_restart_at (c : Dev nD) (t : Fin cfg0.N) (h0 : t.val % 8 = 0) (p : Fin 32) (u : Fin 1) :
    (outsAt0 m c t.val t.isLt).2.2.1 (ix2 p u) = tileErr m c (t.val / 8) (t.val % 8) p := by
  have h1 : ¬t.val % 8 = 7 := by omega
  refine (congrFun (restart_err m c t h0 h1) (ix2 p u)).trans ?_
  refine (acc_err_at (iblk m c 0 t) (iblk m c 2 t) (k0_pay1 (F := Ideal)) p u).trans ?_
  rw [zero_err_at, zero_add]
  exact Finset.sum_congr rfl fun k _ => congrArg₂ absDiff (blkA_at m c t p k) (blkB_at m c t p k)

theorem unc_restart_at (c : Dev nD) (t : Fin cfg0.N) (h0 : t.val % 8 = 0) (p : Fin 32) (u : Fin 1) :
    (outsAt0 m c t.val t.isLt).2.2.2 (ix2 p u) = tileUnc m c (t.val / 8) (t.val % 8) p := by
  have h1 : ¬t.val % 8 = 7 := by omega
  refine (congrFun (restart_unc m c t h0 h1) (ix2 p u)).trans ?_
  refine (acc_unc_at (k0_pay2 (F := Ideal)) (iblk m c 1 t) p u).trans ?_
  rw [zero_unc_at, zero_add]
  exact Finset.sum_congr rfl fun k _ => blkS_at m c t p k

theorem err_continue_at (c : Dev nD) (t : Fin cfg0.N) (h0 : ¬t.val % 8 = 0) (p : Fin 32) (u : Fin 1) :
    (outsAt0 m c t.val t.isLt).2.2.1 (ix2 p u)
      = (outsAt0 m c (t.val - 1) (Nat.lt_of_le_of_lt (Nat.sub_le _ _) t.isLt)).2.2.1 (ix2 p u)
        + tileErr m c (t.val / 8) (t.val % 8) p := by
  refine (congrFun (continue_err m c t h0) (ix2 p u)).trans ?_
  refine (acc_err_at (iblk m c 0 t) (iblk m c 2 t) _ p u).trans ?_
  exact congrArg _ (Finset.sum_congr rfl fun k _ => congrArg₂ absDiff (blkA_at m c t p k) (blkB_at m c t p k))

theorem unc_continue_at (c : Dev nD) (t : Fin cfg0.N) (h0 : ¬t.val % 8 = 0) (p : Fin 32) (u : Fin 1) :
    (outsAt0 m c t.val t.isLt).2.2.2 (ix2 p u)
      = (outsAt0 m c (t.val - 1) (Nat.lt_of_le_of_lt (Nat.sub_le _ _) t.isLt)).2.2.2 (ix2 p u)
        + tileUnc m c (t.val / 8) (t.val % 8) p := by
  refine (congrFun (continue_unc m c t h0) (ix2 p u)).trans ?_
  refine (acc_unc_at _ (iblk m c 1 t) p u).trans ?_
  exact congrArg _ (Finset.sum_congr rfl fun k _ => blkS_at m c t p k)

/-! ## Every position: the running sums are the sums of the steps done so far -/

theorem err_after (c : Dev nD) (n : ℕ) : ∀ (hn : n < cfg0.N) (p : Fin 32) (u : Fin 1),
    (outsAt0 m c n hn).2.2.1 (ix2 p u) = ∑ s ∈ Finset.range (n % 8 + 1), tileErr m c (n / 8) s p := by
  induction n with
  | zero =>
    intro hn p u
    refine (err_restart_at m c ⟨0, hn⟩ rfl p u).trans ?_
    show tileErr m c (0 / 8) (0 % 8) p = _
    rw [Finset.sum_range_one]
  | succ n ih =>
    intro hn p u
    by_cases h0 : (n + 1) % 8 = 0
    · refine (err_restart_at m c ⟨n + 1, hn⟩ h0 p u).trans ?_
      show tileErr m c ((n + 1) / 8) ((n + 1) % 8) p = _
      rw [h0, Finset.sum_range_one]
    · refine (err_continue_at m c ⟨n + 1, hn⟩ h0 p u).trans ?_
      show (outsAt0 m c n (Nat.lt_of_succ_lt hn)).2.2.1 (ix2 p u) + tileErr m c ((n + 1) / 8) ((n + 1) % 8) p = _
      have hq : (n + 1) / 8 = n / 8 := by omega
      have hr : (n + 1) % 8 = n % 8 + 1 := by omega
      rw [ih (Nat.lt_of_succ_lt hn) p u, Finset.sum_range_succ _ ((n + 1) % 8), hq, hr]

theorem unc_after (c : Dev nD) (n : ℕ) : ∀ (hn : n < cfg0.N) (p : Fin 32) (u : Fin 1),
    (outsAt0 m c n hn).2.2.2 (ix2 p u) = ∑ s ∈ Finset.range (n % 8 + 1), tileUnc m c (n / 8) s p := by
  induction n with
  | zero =>
    intro hn p u
    refine (unc_restart_at m c ⟨0, hn⟩ rfl p u).trans ?_
    show tileUnc m c (0 / 8) (0 % 8) p = _
    rw [Finset.sum_range_one]
  | succ n ih =>
    intro hn p u
    by_cases h0 : (n + 1) % 8 = 0
    · refine (unc_restart_at m c ⟨n + 1, hn⟩ h0 p u).trans ?_
      show tileUnc m c ((n + 1) / 8) ((n + 1) % 8) p = _
      rw [h0, Finset.sum_range_one]
    · refine (unc_continue_at m c ⟨n + 1, hn⟩ h0 p u).trans ?_
      show (outsAt0 m c n (Nat.lt_of_succ_lt hn)).2.2.2 (ix2 p u) + tileUnc m c ((n + 1) / 8) ((n + 1) % 8) p = _
      have hq : (n + 1) / 8 = n / 8 := by omega
      have hr : (n + 1) % 8 = n % 8 + 1 := by omega
      rw [ih (Nat.lt_of_succ_lt hn) p u, Finset.sum_range_succ _ ((n + 1) % 8), hq, hr]

/-! ## The last step of a row tile: the whole row is in -/

/-- The eight steps of row tile q at row p make up the row's 262144 entries of |A − B|. -/
theorem err_row (c : Dev nD) (q : ℕ) (p : Fin 32) (h : 32 * q + p.val < 64) :
    ∑ s ∈ Finset.range 8, tileErr m c q s p
      = ∑ j : Fin 262144, absDiff (arrA m c (ix2 ⟨32 * q + p.val, h⟩ j)) (arrB m c (ix2 ⟨32 * q + p.val, h⟩ j)) := by
  rw [sum_lanes, Finset.sum_range]
  refine Finset.sum_congr rfl fun s _ => Finset.sum_congr rfl fun k _ => ?_
  exact congrArg₂ absDiff (entry_lane (arrA m c) ⟨32 * q + p.val, h⟩ s k) (entry_lane (arrB m c) ⟨32 * q + p.val, h⟩ s k)

/-- The eight steps of row tile q at row p make up the row's 262144 entries of S. -/
theorem unc_row (c : Dev nD) (q : ℕ) (p : Fin 32) (h : 32 * q + p.val < 64) :
    ∑ s ∈ Finset.range 8, tileUnc m c q s p = ∑ j : Fin 262144, arrS m c (ix2 ⟨32 * q + p.val, h⟩ j) := by
  rw [sum_lanes, Finset.sum_range]
  refine Finset.sum_congr rfl fun s _ => Finset.sum_congr rfl fun k _ => ?_
  exact entry_lane (arrS m c) ⟨32 * q + p.val, h⟩ s k

end Cert.KernelIdeal.Running

end
-- ==== Proof.Loss.lean ====
/-
  The loss as a function of the two per-sample vectors e (mean absolute error) and u (mean uncertainty), both of
  length 64: over all ordered pairs (i, j) take u_j − u_i + 1 if e_i > e_j and u_i − u_j + 1 otherwise, clip at zero
  from below, keep the pairs with i < j, add them up and divide by the number 2016 of such pairs. Both programs end by
  applying exactly this chain of host operations to their two vectors, so it is stated once, at any float instance.
-/
import proofs.«118534_j33818572488744_2_alg».proof.Proof.Gen.ReferenceIdeal

noncomputable section

namespace Cert.Loss

open Cert.ReferenceIdeal Cert.ReferenceIdeal.Gen Idealize.ShloMosaic Idealize.ShloMosaic.TcCoe Idealize.SL.Sem Idealize.ShloMosaic.StableHlo

variable {F : FTy → Type} [FloatOps F]

/-- The pairwise margin ranking loss of the two length-64 vectors. -/
def lossOf (e u : (⟨S64, .f32⟩ : BufTy).Contents (Elt F)) : (⟨S_, .f32⟩ : BufTy).Contents (Elt F) :=
  Host.divf (Host.reduceAdd (mulf (maximumf (addf (select (cmpf .ogt (broadcastInDim S64x64 ![0, 1] bcast_S64x1_S64x64_0_1 (broadcastInDim S64x1 ![0] bcast_S64_S64x1_0 e)) (broadcastInDim S64x64 ![0, 1] bcast_S1x64_S64x64_0_1 (broadcastInDim S1x64 ![1] bcast_S64_S1x64_1 e))) (subf (broadcastInDim S64x64 ![0, 1] bcast_S1x64_S64x64_0_1 (broadcastInDim S1x64 ![1] bcast_S64_S1x64_1 u)) (broadcastInDim S64x64 ![0, 1] bcast_S64x1_S64x64_0_1 (broadcastInDim S64x1 ![0] bcast_S64_S64x1_0 u))) (subf (broadcastInDim S64x64 ![0, 1] bcast_S64x1_S64x64_0_1 (broadcastInDim S64x1 ![0] bcast_S64_S64x1_0 u)) (broadcastInDim S64x64 ![0, 1] bcast_S1x64_S64x64_0_1 (broadcastInDim S1x64 ![1] bcast_S64_S1x64_1 u)))) (broadcastInDim S64x64 ![] bcast_S_S64x64 (constant S_ .f32 0x3F800000#32))) (broadcastInDim S64x64 ![] bcast_S_S64x64 (constant S_ .f32 0x00000000#32))) (select (cmpi .sge (addi (iotaInDim S64x64 32 0) (broadcastInDim S64x64 ![] bcast_S_S64x64 (constantI S_ 32 0#32))) (iotaInDim S64x64 32 1)) (broadcastInDim S64x64 ![] bcast_S_S64x64 (constant S_ .f32 0x00000000#32)) (broadcastInDim S64x64 ![] bcast_S_S64x64 (constant S_ .f32 0x3F800000#32)))) (constant S_ .f32 0x00000000#32) reducesTo_S64x64_S_d0_1 h_S_) (constant S_ .f32 0x44FC0000#32)

end Cert.Loss

end
-- ==== Proof.KernelMeans.lean ====
/-
  What the kernel program computes, end to end.

  The two [64, 1] output arrays are written back only at the last reduction step of each row tile (positions 7 and 15):
  position t then writes rows 32·(t div 8) … 32·(t div 8) + 31, each holding that row's mean — of |A − B| for the first
  output, of S for the second. The two positions cover all 64 rows, so after the launch the outputs hold the columns of
  row means. The lines after the launch flatten each column to a length-64 vector and apply the loss chain.
-/
import proofs.«118534_j33818572488744_2_alg».proof.Proof.Running
import proofs.«118534_j33818572488744_2_alg».proof.Proof.Loss
import Idealize.ShloMosaic.Lib.StableHlo.Run

set_option maxRecDepth 16384

noncomputable section

open scoped BigOperators

namespace Cert.KernelIdeal.Means

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps Cert.KernelIdeal.PayloadAt Cert.KernelIdeal.Running Cert.MeanSpec

variable (m : (ℓ : Loc nD τ sig) → Buf (Elt Ideal) ℓ) (ρ : Dev nD → PrngReg)

/-- The array row that row y₀ of position t's block is. -/
def rowOf (t : Fin cfg0.N) (y0 : Fin 32) : Fin 64 :=
  ⟨32 * (t.val / 8) + y0.val, by
    have hN : t.val < 16 := lt_of_lt_of_eq t.isLt N_0
    have := y0.isLt
    omega⟩

/-- Position t's block of a [64, 1] array G, read back: rows 32·(t div 8) + y₀ of its one column. -/
theorem read_out_err (G : S64x1.Idx → EReal) (t : Fin cfg0.N) :
    (((cfg0.win 3).blk t).view.read (Elt Ideal) G : Vec Ideal S32x1 .f32) = fun y => G (ix2 (rowOf t (y 0)) (0 : Fin 1)) := by
  obtain ⟨-, -, -, -, -, -, e0, e1, -⟩ := idx_facts t
  funext y
  rw [View.read_apply]
  show G _ = G _
  refine congrArg G ?_
  funext a
  apply Fin.ext
  match a with
  | ⟨0, _⟩ => show win0_3.index t (0 : Fin 2) * 32 + 1 * (y 0).val = 32 * (t.val / 8) + (y 0).val; rw [e0]; omega
  | ⟨1, _⟩ => show win0_3.index t (1 : Fin 2) * 1 + 1 * (y 1).val = 0; have hy1 : (y 1).val < 1 := (y 1).isLt; rw [e1]; omega

theorem read_out_unc (G : S64x1.Idx → EReal) (t : Fin cfg0.N) :
    (((cfg0.win 4).blk t).view.read (Elt Ideal) G : Vec Ideal S32x1 .f32) = fun y => G (ix2 (rowOf t (y 0)) (0 : Fin 1)) := by
  obtain ⟨-, -, -, -, -, -, -, -, e0, e1⟩ := idx_facts t
  funext y
  rw [View.read_apply]
  show G _ = G _
  refine congrArg G ?_
  funext a
  apply Fin.ext
  match a with
  | ⟨0, _⟩ => show win0_4.index t (0 : Fin 2) * 32 + 1 * (y 0).val = 32 * (t.val / 8) + (y 0).val; rw [e0]; omega
  | ⟨1, _⟩ => show win0_4.index t (1 : Fin 2) * 1 + 1 * (y 1).val = 0; have hy1 : (y 1).val < 1 := (y 1).isLt; rw [e1]; omega

/-- At the last step of a row tile the first output block holds the rows' means of |A − B|. -/
theorem out_err_rows (c : Dev nD) (t : Fin cfg0.N) (h7 : t.val % 8 = 7) :
    ((outsAt0 m c t.val t.isLt).1 : Vec Ideal S32x1 .f32)
      = fun y => meanAbsDiffCol (arrA m c) (arrB m c) (ix2 (rowOf t (y 0)) (0 : Fin 1)) := by
  funext y
  obtain ⟨p, u, rfl⟩ : ∃ (p : Fin 32) (u : Fin 1), y = ix2 p u := ⟨y 0, y 1, eq_ix2 y⟩
  rw [out_err m c t h7]
  refine (scaled_err_at _ (ix2 p u)).trans ?_
  rw [err_after m c t.val t.isLt p u, show t.val % 8 + 1 = 8 from by omega]
  exact congrArg (· * Ideal.ofBits .f32 0x36800000#32) (err_row m c (t.val / 8) p (rowOf t p).isLt)

/-- At the last step of a row tile the second output block holds the rows' means of S. -/
theorem out_unc_rows (c : Dev nD) (t : Fin cfg0.N) (h7 : t.val % 8 = 7) :
    ((outsAt0 m c t.val t.isLt).2.1 : Vec Ideal S32x1 .f32)
      = fun y => meanCol (arrS m c) (ix2 (rowOf t (y 0)) (0 : Fin 1)) := by
  funext y
  obtain ⟨p, u, rfl⟩ : ∃ (p : Fin 32) (u : Fin 1), y = ix2 p u := ⟨y 0, y 1, eq_ix2 y⟩
  rw [out_unc m c t h7]
  refine (scaled_unc_at _ (ix2 p u)).trans ?_
  rw [unc_after m c t.val t.isLt p u, show t.val % 8 + 1 = 8 from by omega]
  exact congrArg (· * Ideal.ofBits .f32 0x36800000#32) (unc_row m c (t.val / 8) p (rowOf t p).isLt)

/-- What a flushing position writes back into the first output is its block of the column of means. -/
theorem flushed_err (c : Dev nD) (t : Fin cfg0.N) (hf : (cfg0.win 3).flush t = true) :
    (dats m 0 c).flushed 3 t = ((cfg0.win 3).blk t).view.read (Elt Ideal) (meanAbsDiffCol (arrA m c) (arrB m c)) := by
  have h7 : t.val % 8 = 7 := (flush0_3 t).mp hf
  show (cfg0.win 3).cut (grid0.coords t) ((dats m 0 c).after 3 t) = _
  rw [after0_3]
  exact (out_err_rows m c t h7).trans (read_out_err (meanAbsDiffCol (arrA m c) (arrB m c)) t).symm

theorem flushed_unc (c : Dev nD) (t : Fin cfg0.N) (hf : (cfg0.win 4).flush t = true) :
    (dats m 0 c).flushed 4 t = ((cfg0.win 4).blk t).view.read (Elt Ideal) (meanCol (arrS m c)) := by
  have h7 : t.val % 8 = 7 := (flush0_4 t).mp hf
  show (cfg0.win 4).cut (grid0.coords t) ((dats m 0 c).after 4 t) = _
  rw [after0_4]
  exact (out_unc_rows m c t h7).trans (read_out_unc (meanCol (arrS m c)) t).symm

/-- An index of a [64, 1] output array lies in position t's block iff each coordinate lies in the block's range. -/
theorem mem_blk_err (t : Fin cfg0.N) (i : S64x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_call0_v3_0).slice (win0_3.rect t)).set ↔ _
  rw [View.set_slice_whole, Rect.mem_set_unit]
  exact Iff.rfl

theorem mem_blk_unc (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_call0_v3_1).slice (win0_4.rect t)).set ↔ _
  rw [View.set_slice_whole, Rect.mem_set_unit]
  exact Iff.rfl

/-- The position that writes row r back: the last step, 8·(r div 32) + 7, of r's row tile. -/
def lastOf (r : Fin 64) : Fin cfg0.N :=
  ⟨8 * (r.val / 32) + 7, by rw [show cfg0.N = 16 from N_0]; have := r.isLt; omega⟩

theorem cover_err (i : S64x1.Idx) : ∃ t : Fin cfg0.N, (cfg0.win 3).flush t = true ∧ i ∈ ((cfg0.win 3).blk t).view.set := by
  have h0 : (i 0).val < 64 := (i 0).isLt
  have h1 : (i 1).val < 1 := (i 1).isLt
  refine ⟨lastOf (i 0), (flush0_3 _).mpr (by show (8 * ((i 0).val / 32) + 7) % 8 = 7; omega), ?_⟩
  obtain ⟨-, -, -, -, -, -, e0, e1, -⟩ := idx_facts (lastOf (i 0))
  have ev : (lastOf (i 0)).val / 8 = (i 0).val / 32 := by show (8 * ((i 0).val / 32) + 7) / 8 = _; omega
  rw [mem_blk_err]
  intro a
  match a with
  | ⟨0, _⟩ =>
    show win0_3.index (lastOf (i 0)) (0 : Fin 2) * 32 ≤ (i 0).val ∧ (i 0).val < win0_3.index (lastOf (i 0)) (0 : Fin 2) * 32 + 32
    rw [e0, ev]; omega
  | ⟨1, _⟩ =>
    show win0_3.index (lastOf (i 0)) (1 : Fin 2) * 1 ≤ (i 1).val ∧ (i 1).val < win0_3.index (lastOf (i 0)) (1 : Fin 2) * 1 + 1
    rw [e1]; omega

theorem cover_unc (i : S64x1.Idx) : ∃ t : Fin cfg0.N, (cfg0.win 4).flush t = true ∧ i ∈ ((cfg0.win 4).blk t).view.set := by
  have h0 : (i 0).val < 64 := (i 0).isLt
  have h1 : (i 1).val < 1 := (i 1).isLt
  refine ⟨lastOf (i 0), (flush0_4 _).mpr (by show (8 * ((i 0).val / 32) + 7) % 8 = 7; omega), ?_⟩
  obtain ⟨-, -, -, -, -, -, -, -, e0, e1⟩ := idx_facts (lastOf (i 0))
  have ev : (lastOf (i 0)).val / 8 = (i 0).val / 32 := by show (8 * ((i 0).val / 32) + 7) / 8 = _; omega
  rw [mem_blk_unc]
  intro a
  match a with
  | ⟨0, _⟩ =>
    show win0_4.index (lastOf (i 0)) (0 : Fin 2) * 32 ≤ (i 0).val ∧ (i 0).val < win0_4.index (lastOf (i 0)) (0 : Fin 2) * 32 + 32
    rw [e0, ev]; omega
  | ⟨1, _⟩ =>
    show win0_4.index (lastOf (i 0)) (1 : Fin 2) * 1 ≤ (i 1).val ∧ (i 1).val < win0_4.index (lastOf (i 0)) (1 : Fin 2) * 1 + 1
    rw [e1]; omega

/-- After the launch the first output holds the column of the rows' means of |A − B|, -/
theorem final_err (c : Dev nD) : (dats m 0 c).arrAt 3 cfg0.N = meanAbsDiffCol (arrA m c) (arrB m c) :=
  (dats m 0 c).arrAt_eq_of_cover 3 (meanAbsDiffCol (arrA m c) (arrB m c)) (flushed_err m c) cover_err

/-- and the second the column of the rows' means of S. -/
theorem final_unc (c : Dev nD) : (dats m 0 c).arrAt 4 cfg0.N = meanCol (arrS m c) :=
  (dats m 0 c).arrAt_eq_of_cover 4 (meanCol (arrS m c)) (flushed_unc m c) cover_unc

end Cert.KernelIdeal.Means

end
-- ==== Proof.KernelLoss.lean ====
/-
  The kernel program's result. The three arrays the kernel sees are the arguments reshaped from [64, 4, 256, 256] to
  [64, 262144]: entry (r, 65536·b + 256·c + d) of the reshaped array is entry (r, b, c, d) of the argument (the same
  row-major position). So each row mean is the triple sum over (b, c, d) of the sample's entries times 2⁻¹⁸. The lines
  after the launch flatten the two [64, 1] columns of means to length-64 vectors and apply the loss chain to them.
-/
import proofs.«118534_j33818572488744_2_alg».proof.Proof.KernelMeans
import proofs.«118534_j33818572488744_2_alg».proof.Proof.Loss
import Idealize.ShloMosaic.Lib.StableHlo.Run

set_option maxRecDepth 16384

noncomputable section

open scoped BigOperators

namespace Cert.KernelIdeal.LossRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Running Cert.KernelIdeal.Means Cert.MeanSpec Cert.Loss

variable (m : (ℓ : Loc nD τ sig) → Buf (Elt Ideal) ℓ) (ρ : Dev nD → PrngReg)

/-- The kernel's two length-64 vectors: the columns of row means, flattened. -/
abbrev errVec (c : Dev nD) : S64.Idx → EReal :=
  shapeCast S64 (meanAbsDiffCol (arrA m c) (arrB m c)) shapeCasts_S64x1_S64
abbrev uncVec (c : Dev nD) : S64.Idx → EReal :=
  shapeCast S64 (meanCol (arrS m c)) shapeCasts_S64x1_S64

/-- The loss chain spelt with this program's own shape names. -/
def lossOfK {F : FTy → Type} [FloatOps F] (e u : (⟨S64, .f32⟩ : BufTy).Contents (Elt F)) : (⟨S_, .f32⟩ : BufTy).Contents (Elt F) :=
  Host.divf (Host.reduceAdd (mulf (maximumf (addf (select (cmpf .ogt (broadcastInDim S64x64 ![0, 1] bcast_S64x1_S64x64_0_1 (broadcastInDim S64x1 ![0] bcast_S64_S64x1_0 e)) (broadcastInDim S64x64 ![0, 1] bcast_S1x64_S64x64_0_1 (broadcastInDim S1x64 ![1] bcast_S64_S1x64_1 e))) (subf (broadcastInDim S64x64 ![0, 1] bcast_S1x64_S64x64_0_1 (broadcastInDim S1x64 ![1] bcast_S64_S1x64_1 u)) (broadcastInDim S64x64 ![0, 1] bcast_S64x1_S64x64_0_1 (broadcastInDim S64x1 ![0] bcast_S64_S64x1_0 u))) (subf (broadcastInDim S64x64 ![0, 1] bcast_S64x1_S64x64_0_1 (broadcastInDim S64x1 ![0] bcast_S64_S64x1_0 u)) (broadcastInDim S64x64 ![0, 1] bcast_S1x64_S64x64_0_1 (broadcastInDim S1x64 ![1] bcast_S64_S1x64_1 u)))) (broadcastInDim S64x64 ![] bcast_S_S64x64 (constant S_ .f32 0x3F800000#32))) (broadcastInDim S64x64 ![] bcast_S_S64x64 (constant S_ .f32 0x00000000#32))) (select (cmpi .sge (addi (iotaInDim S64x64 32 0) (broadcastInDim S64x64 ![] bcast_S_S64x64 (constantI S_ 32 0#32))) (iotaInDim S64x64 32 1)) (broadcastInDim S64x64 ![] bcast_S_S64x64 (constant S_ .f32 0x00000000#32)) (broadcastInDim S64x64 ![] bcast_S_S64x64 (constant S_ .f32 0x3F800000#32)))) (constant S_ .f32 0x00000000#32) reducesTo_S64x64_S_d0_1 h_S_) (constant S_ .f32 0x44FC0000#32)

/-- It is the one chain both programs apply. -/
theorem lossOfK_eq (e u : (⟨S64, .f32⟩ : BufTy).Contents (Elt Ideal)) : lossOfK (F := Ideal) e u = lossOf e u := rfl

set_option maxHeartbeats 4000000 in
/-- The lines after the launch, for whatever two [64, 1] columns the launch left in the outputs: the loss of the two
    columns flattened. -/
theorem tail_of (c : Dev nD) (X3 X4 : S64x1.Idx → EReal)
    (e3 : Pipeline.withArrays (cfgs 0).spec c (V0 m c) (fun w => (dats m 0 c).arrAt w (cfgs 0).N) (Proc.devRef .tc main_call0_v3_0) = X3)
    (e4 : Pipeline.withArrays (cfgs 0).spec c (V0 m c) (fun w => (dats m 0 c).arrAt w (cfgs 0).N) (Proc.devRef .tc main_call0_v3_1) = X4) :
    Pipeline.afterTail₀ cfgs (dats m) 0 (V0 m) [hostOps1] c main_v0
      = lossOfK (shapeCast S64 X3 shapeCasts_S64x1_S64) (shapeCast S64 X4 shapeCasts_S64x1_S64) := by
  unfold Pipeline.afterTail₀
  simp only [List.flatten_cons, List.flatten_nil, List.append_nil]
  after_results_simp
  rw [e3, e4]
  rfl

/-- The lines after the launch compute the loss of the two flattened columns of means. -/
theorem tail_eq (c : Dev nD) :
    Pipeline.afterTail₀ cfgs (dats m) 0 (V0 m) [hostOps1] c main_v0 = lossOf (errVec m c) (uncVec m c) :=
  (tail_of m c (meanAbsDiffCol (arrA m c) (arrB m c)) (meanCol (arrS m c))
    ((Pipeline.withArrays_arr spec0 launch0.win.arr_inj c _ _ 3).trans (final_err m c))
    ((Pipeline.withArrays_arr spec0 launch0.win.arr_inj c _ _ 4).trans (final_unc m c))).trans (lossOfK_eq _ _)

/-- The three arguments, as [64, 4, 256, 256] arrays of extended reals. -/
abbrev argA (c : Dev nD) : S64x4x256x256.Idx → EReal := m ((c : Thread nD τ).loc main_arg0)
abbrev argS (c : Dev nD) : S64x4x256x256.Idx → EReal := m ((c : Thread nD τ).loc main_arg1)
abbrev argB (c : Dev nD) : S64x4x256x256.Idx → EReal := m ((c : Thread nD τ).loc main_arg2)

/-- The kernel's first array is the first argument reshaped; likewise the other two. -/
theorem arrA_eq (c : Dev nD) :
    arrA m c = shapeCast S64x262144 (argA m c) shapeCasts_S64x4x256x256_S64x262144 := by
  show StableHlo.after hostOps0 (fun b => m (c, b)) (Proc.devRef .tc main_call0_v0) = _
  after_results
  rfl

theorem arrS_eq (c : Dev nD) :
    arrS m c = shapeCast S64x262144 (argS m c) shapeCasts_S64x4x256x256_S64x262144 := by
  show StableHlo.after hostOps0 (fun b => m (c, b)) (Proc.devRef .tc main_call0_v1) = _
  after_results
  rfl

theorem arrB_eq (c : Dev nD) :
    arrB m c = shapeCast S64x262144 (argB m c) shapeCasts_S64x4x256x256_S64x262144 := by
  show StableHlo.after hostOps0 (fun b => m (c, b)) (Proc.devRef .tc main_call0_v2) = _
  after_results
  rfl

/-- The reshape to [64, 262144] read at (r, 65536·b + 256·c + d): the argument at (r, b, c, d). -/
theorem reshape_at (x : S64x4x256x256.Idx → EReal) (r : Fin 64) (b : Fin 4) (c d : Fin 256) :
    shapeCast S64x262144 x shapeCasts_S64x4x256x256_S64x262144 (ix2 r (flat b c d)) = x (ix4 r b c d) :=
  shapeCast_apply x _ _ _ (by
    rw [Shape.rowMajor_val_four, Shape.rowMajor_val_two]
    show ((r.val * 4 + b.val) * 256 + c.val) * 256 + d.val = r.val * 262144 + (65536 * b.val + (256 * c.val + d.val))
    omega)

/-- A [64, 1] column flattened to length 64 reads, at r, the column's entry of row r. -/
theorem flatten_at (x : S64x1.Idx → EReal) (r : Fin 64) :
    shapeCast S64 x shapeCasts_S64x1_S64 (ix1 r) = x (ix2 r (0 : Fin 1)) :=
  shapeCast_apply x _ _ _ (by
    rw [Shape.rowMajor_val_two, Shape.rowMajor_val_one]
    show r.val * 1 + 0 = r.val
    omega)

/-- The kernel's mean absolute error of sample r. -/
theorem err_at (c : Dev nD) (r : Fin 64) :
    errVec m c (ix1 r)
      = (∑ b : Fin 4, ∑ cc : Fin 256, ∑ d : Fin 256, absDiff ((argA m c) (ix4 r b cc d)) ((argB m c) (ix4 r b cc d)))
        * Ideal.ofBits .f32 0x36800000#32 := by
  refine (flatten_at _ r).trans ?_
  show (∑ j : Fin 262144, absDiff (arrA m c (ix2 r j)) (arrB m c (ix2 r j))) * _ = _
  rw [sum_flat, arrA_eq, arrB_eq]
  refine congrArg (· * Ideal.ofBits .f32 0x36800000#32) ?_
  refine Finset.sum_congr rfl fun b _ => Finset.sum_congr rfl fun cc _ => Finset.sum_congr rfl fun d _ => ?_
  rw [reshape_at, reshape_at]

/-- The kernel's mean uncertainty of sample r. -/
theorem unc_at (c : Dev nD) (r : Fin 64) :
    uncVec m c (ix1 r)
      = (∑ b : Fin 4, ∑ cc : Fin 256, ∑ d : Fin 256, (argS m c) (ix4 r b cc d)) * Ideal.ofBits .f32 0x36800000#32 := by
  refine (flatten_at _ r).trans ?_
  show (∑ j : Fin 262144, arrS m c (ix2 r j)) * _ = _
  rw [sum_flat, arrS_eq]
  refine congrArg (· * Ideal.ofBits .f32 0x36800000#32) ?_
  refine Finset.sum_congr rfl fun b _ => Finset.sum_congr rfl fun cc _ => Finset.sum_congr rfl fun d _ => ?_
  rw [reshape_at]

/-- The kernel program's run: the result is the loss of its two vectors of means; the arguments are unchanged. -/
theorem run : θ_run defs (onTc (τ := τ) (main (F := Ideal))) ⟨m, fun _ => 0, ρ⟩ fun r => ∀ c : Dev nD,
      r.2.mem ((c.tc : Thread nD τ).loc main_v0) = lossOf (errVec m c) (uncVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.LossRun

end
-- ==== Proof.LibSumTail3.lean ====
/-
  The host's float sum over the three trailing axes of a rank-4 array, at any extents.

  Reducing [n0, n1, n2, n3] over the axes 1, 2, 3 leaves [n0]. Read at r, the result is the initial value plus the sum of
  the entries whose leading coordinate is r — the triple sum over the trailing coordinates (b, c, d) of the array at
  (r, b, c, d). On the extended reals, with no finiteness condition: only the entries that reduce to r are summed, and a
  finite sum may be regrouped freely in a commutative monoid.
-/
import Idealize.ShloMosaic.PureOps.Ideal
import Idealize.ShloMosaic.PureOps.Ideal.Laws
import Idealize.ShloMosaic.PureOps.Reduce
import Idealize.ShloMosaic.Lib.ValueIdx
import proofs.«118534_j33818572488744_2_alg».proof.Proof.LibSumIdx

noncomputable section

open scoped BigOperators

namespace Cert.LibSumTail3

open Idealize.ShloMosaic Idealize.ShloMosaic.ValueIdx

/-- Dropping the three trailing coordinates of (a, b, c, d) leaves a. -/
theorem drop_tail3 {n0 n1 n2 n3 : ℕ} (h : (⟨4, ![n0, n1, n2, n3]⟩ : Shape).ReducesTo [1, 2, 3] ⟨1, ![n0]⟩)
    (a : Fin n0) (b : Fin n1) (c : Fin n2) (d : Fin n3) : h.drop (ix4 a b c d) = ix1 a := by
  funext x
  match x with
  | ⟨0, _⟩ => exact Fin.ext rfl

/-- The host's sum over the three trailing axes, read at r: the initial value plus the triple sum over the trailing
    coordinates. -/
theorem hostReduceAdd_tail3 {n0 n1 n2 n3 : ℕ} (h : (⟨4, ![n0, n1, n2, n3]⟩ : Shape).ReducesTo [1, 2, 3] ⟨1, ![n0]⟩)
    (x : (⟨4, ![n0, n1, n2, n3]⟩ : Shape).Idx → EReal) (init : EReal) (r : Fin n0) :
    Ideal.hostReduceAdd h x init (ix1 r) = init + ∑ b : Fin n1, ∑ c : Fin n2, ∑ d : Fin n3, x (ix4 r b c d) := by
  unfold Ideal.hostReduceAdd
  refine congrArg (init + ·) ?_
  rw [Finset.sum_filter, Cert.LibSumIdx.sum_idx4]
  simp only [drop_tail3 h]
  rw [Finset.sum_eq_single r]
  · simp only [if_true]
  · intro a _ hne
    have hne' : ¬(ix1 a = ix1 r) := fun e => hne (congrFun e 0)
    simp only [if_neg hne', Finset.sum_const_zero]
  · intro hr
    exact absurd (Finset.mem_univ r) hr

end Cert.LibSumTail3

end
-- ==== Proof.RefMeans.lean ====
/-
  What the reference program computes. It subtracts, takes absolute values, sums each sample over its three trailing
  axes (4, 256, 256) starting from zero, divides by 262144, and does the same without the difference for the second
  array; then it applies the loss chain to the two length-64 vectors. Read at sample r, each vector's entry is the triple
  sum over (b, c, d) of the sample's entries, times 2⁻¹⁸ (a division by 2¹⁸ of a sum started from zero).
-/
import proofs.«118534_j33818572488744_2_alg».proof.Proof.Gen.ReferenceIdeal.Read
import proofs.«118534_j33818572488744_2_alg».proof.Proof.Loss
import proofs.«118534_j33818572488744_2_alg».proof.Proof.MeanSpec
import proofs.«118534_j33818572488744_2_alg».proof.Proof.LibSumTail3

set_option maxRecDepth 16384

noncomputable section

open scoped BigOperators

namespace Cert.ReferenceIdeal.Means

open Cert.ReferenceIdeal Cert.ReferenceIdeal.Gen Cert.ReferenceIdeal.Read Idealize.ShloMosaic Idealize.ShloMosaic.TcCoe Idealize.SL.Sem
open Idealize.ShloMosaic.ValueIdx Cert.MeanSpec Cert.Loss

/-- The reference's run: the result is the loss of its two vectors of means; the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = lossOf (val_main_v4 (F := Ideal) (m ((c.tc : Thread nD τ).loc main_arg0)) (m ((c.tc : Thread nD τ).loc main_arg2))) (val_main_v7 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.Value.run (F := Ideal) m ρ)

/-- The reference's mean absolute error of sample r. -/
theorem err_at (x0 x2 : (⟨S64x4x256x256, .f32⟩ : BufTy).Contents (Elt Ideal)) (r : Fin 64) :
    val_main_v4 (F := Ideal) x0 x2 (ix1 r)
      = (∑ b : Fin 4, ∑ c : Fin 256, ∑ d : Fin 256, absDiff (x0 (ix4 r b c d)) (x2 (ix4 r b c d)))
        * Ideal.ofBits .f32 0x36800000#32 := by
  rw [val_main_v4_apply, val_main_v3_apply, val_main_cst_0_apply]
  show Ideal.div (Ideal.hostReduceAdd reducesTo_S64x4x256x256_S64_d1_2_3 (val_main_v1 (F := Ideal) x0 x2)
    (Ideal.ofBits .f32 0x00000000#32) (ix1 r)) (Ideal.ofBits .f32 0x48800000#32) = _
  rw [Cert.LibSumTail3.hostReduceAdd_tail3, zero_add_div]
  rfl

/-- The reference's mean uncertainty of sample r. -/
theorem unc_at (x1 : (⟨S64x4x256x256, .f32⟩ : BufTy).Contents (Elt Ideal)) (r : Fin 64) :
    val_main_v7 (F := Ideal) x1 (ix1 r)
      = (∑ b : Fin 4, ∑ c : Fin 256, ∑ d : Fin 256, x1 (ix4 r b c d)) * Ideal.ofBits .f32 0x36800000#32 := by
  rw [val_main_v7_apply, val_main_v6_apply, val_main_cst_2_apply]
  show Ideal.div (Ideal.hostReduceAdd reducesTo_S64x4x256x256_S64_d1_2_3 x1
    (Ideal.ofBits .f32 0x00000000#32) (ix1 r)) (Ideal.ofBits .f32 0x48800000#32) = _
  rw [Cert.LibSumTail3.hostReduceAdd_tail3, zero_add_div]

end Cert.ReferenceIdeal.Means

end
-- ==== Proof.Bridge.lean ====
/-
  The two programs' per-sample means agree. From memories that agree on the three arguments, the kernel's vector of
  means (row sums taken tile by tile and lane by lane, times 2⁻¹⁸) and the reference's (sums over the three trailing axes
  from zero, divided by 2¹⁸) are, at every sample r, the same triple sum over (b, c, d) times 2⁻¹⁸ — for the mean absolute
  error and for the mean uncertainty alike. No finiteness of the inputs is used: regrouping a finite sum and trading a
  division by 2¹⁸ for a product with 2⁻¹⁸ are valid on all extended reals.
-/
import proofs.«118534_j33818572488744_2_alg».proof.Proof.KernelLoss
import proofs.«118534_j33818572488744_2_alg».proof.Proof.RefMeans

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The mean absolute errors agree. -/
theorem err_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Read.val_main_v4 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) = Cert.KernelIdeal.LossRun.errVec m c := by
  funext i
  obtain ⟨r, rfl⟩ : ∃ r : Fin 64, i = ix1 r := ⟨i 0, eq_ix1 i⟩
  rw [Cert.ReferenceIdeal.Means.err_at, h0, h2]
  exact (Cert.KernelIdeal.LossRun.err_at m c r).symm

/-- The mean uncertainties agree. -/
theorem unc_eq (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Read.val_main_v7 (F := Ideal) (m' ((c.tc : Thread Cert.ReferenceIdeal.nD Cert.ReferenceIdeal.τ).loc Cert.ReferenceIdeal.main_arg1)) = Cert.KernelIdeal.LossRun.uncVec m c := by
  funext i
  obtain ⟨r, rfl⟩ : ∃ r : Fin 64, i = ix1 r := ⟨i 0, eq_ix1 i⟩
  rw [Cert.ReferenceIdeal.Means.unc_at, h1]
  exact (Cert.KernelIdeal.LossRun.unc_at m c r).symm

end Cert.Bridge

end
-- ==== Proof.lean ====
/-
  The kernel computes, per sample, the mean of |pred_mean − targets| and the mean of pred_std by summing each sample's
  262144 entries tile by tile (eight tiles of 32768 lanes, a running sum carried between the grid's positions) and scaling
  by 2⁻¹⁸; the reference sums over the three trailing axes and divides by 2¹⁸. Both then apply the same pairwise ranking
  loss to the two length-64 vectors. On the extended reals the two vectors are equal (a finite sum may be regrouped in
  any way, and dividing by 2¹⁸ is multiplying by 2⁻¹⁸), so the two losses are equal. The idealization rewrote nothing in
  the kernel, and each program runs to the end leaving its arguments as they were.
-/
import proofs.«118534_j33818572488744_2_alg».proof.Defs
import proofs.«118534_j33818572488744_2_alg».proof.Proof.Gen.Kernel
import proofs.«118534_j33818572488744_2_alg».proof.Proof.Gen.Kernel.Skeleton
import proofs.«118534_j33818572488744_2_alg».proof.Proof.Gen.Kernel.Launch
import proofs.«118534_j33818572488744_2_alg».proof.Proof.Gen.Kernel.Points
import proofs.«118534_j33818572488744_2_alg».proof.Proof.Gen.Kernel.Frame
import proofs.«118534_j33818572488744_2_alg».proof.Proof.Gen.KernelIdeal
import proofs.«118534_j33818572488744_2_alg».proof.Proof.Gen.KernelIdeal.Skeleton
import proofs.«118534_j33818572488744_2_alg».proof.Proof.Gen.KernelIdeal.Launch
import proofs.«118534_j33818572488744_2_alg».proof.Proof.Gen.KernelIdeal.Points
import proofs.«118534_j33818572488744_2_alg».proof.Proof.Gen.KernelIdeal.Frame
import proofs.«118534_j33818572488744_2_alg».proof.Proof.Gen.ReferenceIdeal
import proofs.«118534_j33818572488744_2_alg».proof.Proof.Gen.ReferenceIdeal.Run
import proofs.«118534_j33818572488744_2_alg».proof.Proof.Gen.ReferenceIdeal.Read
import proofs.«118534_j33818572488744_2_alg».proof.Proof.Gen.Pre_finite_inputs
import proofs.«118534_j33818572488744_2_alg».proof.Proof.Bridge
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Means.run m ρ)

/-- The idealization rewrote no operation. -/
theorem preserves : Cert.preserves_Kernel_KernelIdeal := trivial

/-- From memories agreeing on the arguments both idealized programs end at the loss of one and the same pair of
    vectors of per-sample means. -/
theorem algebraic : Cert.algebraic_KernelIdeal_ReferenceIdeal := by
  intro m ρ m' ρ' _ hagree
  refine ⟨fun c => Cert.Loss.lossOf (Cert.KernelIdeal.LossRun.errVec m c) (Cert.KernelIdeal.LossRun.uncVec m c),
    Cert.KernelIdeal.LossRun.run m ρ, ?_⟩
  refine (θ_run Cert.ReferenceIdeal.defs _ _).mono (fun _ h c => ⟨(h c).1.trans ?_, (h c).2⟩)
    (Cert.ReferenceIdeal.Means.run m' ρ')
  exact congrArg₂ Cert.Loss.lossOf (Cert.Bridge.err_eq m m' c (hagree c).1 (hagree c).2.2)
    (Cert.Bridge.unc_eq m m' c (hagree c).2.1)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
